-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 91
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x64, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x64, .f32⟩
  | .hbm, ⟨60, _⟩ => ⟨S850000x1, .f32⟩
  | .hbm, ⟨61, _⟩ => ⟨S850000x64, .f32⟩
  | .hbm, ⟨62, _⟩ => ⟨S850000x64, .f32⟩
  | .hbm, ⟨63, _⟩ => ⟨S_, .f32⟩
  | .hbm, ⟨64, _⟩ => ⟨S50000x64, .f32⟩
  | .hbm, ⟨65, _⟩ => ⟨S850000x1, .i32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S1x64, .f32⟩
  | .hbm, ⟨89, _⟩ => ⟨S1x64, .f32⟩
  | .hbm, ⟨90, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26
abbrev cc4_sem5_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x64 : Shape := ⟨2, ![50000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S50000x64, .f32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x64, .f32⟩
  | 60 => ⟨S850000x1, .f32⟩
  | 61 => ⟨S850000x64, .f32⟩
  | 62 => ⟨S850000x64, .f32⟩
  | 63 => ⟨S_, .f32⟩
  | 64 => ⟨S50000x64, .f32⟩
  | 65 => ⟨S850000x1, .i32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S50000x64, .f32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x64, .f32⟩
  | 116 => ⟨S850000x1, .f32⟩
  | 117 => ⟨S850000x64, .f32⟩
  | 118 => ⟨S850000x64, .f32⟩
  | 119 => ⟨S_, .f32⟩
  | 120 => ⟨S50000x64, .f32⟩
  | 121 => ⟨S850000x1, .i32⟩
  | 122 => ⟨S50000x64, .f32⟩
  | 123 => ⟨S1x64, .f32⟩
  | 124 => ⟨S50000x64, .f32⟩
  | 125 => ⟨S50000x64, .f32⟩
  | 126 => ⟨S50000x64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | 2 => ⟨S_, .f32⟩
  | 3 => ⟨S50000x64, .f32⟩
  | 4 => ⟨S50000x64, .f32⟩
  | 5 => ⟨S50000x64, .f32⟩
  | 6 => ⟨S1x64, .f32⟩
  | 7 => ⟨S50000x64, .f32⟩
  | 8 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_c_14 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call3_cst : Ref sig .tc := ⟨.hbm, 130, rfl⟩
abbrev main_call3_v0 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run with its two results named.

  @main is eleven segments: six stretches of host operations and five kernel regions. The contents of every buffer at each
  segment boundary are a fold from the launch memory (the frame module's `W0 … W11`: a host stretch applies its operations, a
  region leaves its arrays at what its write-backs leave and every other buffer as it was). Every weakly fair execution
  terminates, and in every final state each unscoped buffer holds the last boundary's contents `W11`: here that is read at
  the two result buffers and, walked back to the launch memory, at the ten argument buffers.
-/
import proofs.«171685_j10264971837866_1_alg».proof.Proof.Gen.KernelIdeal.Frame

set_option maxRecDepth 16384

noncomputable section

namespace Cert.KernelIdeal.Flow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the two result buffers end at the last
    boundary's contents and the ten arguments as launched. -/
theorem run_results : θ_run defs (onTc (τ := τ) (main (F := F))) ⟨m, fun _ => 0, ρ⟩ (fun r => ∀ c : Dev nD,
      r.2.mem ((c.tc : Thread nD τ).loc main_v61) = W11 m ρ c (Proc.devRef .tc main_v61)
      ∧ r.2.mem ((c.tc : Thread nD τ).loc main_v64) = W11 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v61 (by decide)),
       h c _ (mem_uc main_v64 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Flow

end
-- ==== Proof.Spec.lean ====
/-
  Shared vocabulary of the value proof: the index constructors of the row-tiled arrays, and the two matrix products of a
  row block read at an index as plain sums over the contracted axis.

  Every kernel of the program is row-tiled: grid point `t` (of ten) works on rows `5000 t … 5000 t + 4999` of a
  [50000, ·] array, and the small operands (weights, biases) are whole at every point. At the ideal instance a change of float
  format is the identity and `tpu.matmul` into a zero accumulator is the plain sum `∑ k, x (r, k) · w (k, c)`.
-/
import proofs.«171685_j10264971837866_1_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Flow

open Cert.KernelIdeal Cert.KernelIdeal.Gen Idealize.ShloMosaic Idealize.ShloMosaic.ValueIdx

open Cert.KernelIdeal.Facts₀ Cert.KernelIdeal.Facts

theorem hz2 : (![0, 0] : Fin 2 → Nat) = fun _ => 0 := funext fun a => by fin_cases a <;> rfl

/-- Row `5000 T + r` of a 50000-row array, `r` a row of block `T`. -/
def gRow (T : Nat) (hT : T < 10) (r : Fin 5000) : Fin 50000 := ⟨5000 * T + r.val, by have := r.isLt; omega⟩

/-! ## The contraction of one axis, read at an index -/

theorem lhs128_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs128_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs128_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs128_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A [5000,128] block times a [128,64] matrix into a zero accumulator, at row `r` and column `c`: the sum over the 128
    contracted positions. -/
theorem matmul128_apply {φ₁ φ₂ : FTy} (x : FVec Ideal S5000x128 φ₁) (w : FVec Ideal S128x64 φ₂) (r : Fin 5000) (c : Fin 64) :
    matmul dot_S5000x128_S128x64_S5000x64_1_0_0_1_n_n none x w (constant S5000x64 .f32 0x00000000#32) (ix2 r c)
      = ∑ k : Fin 128, x (ix2 r k) * w (ix2 k c) := by
  refine (Ideal.matmul_constant_zero_apply dot_S5000x128_S128x64_S5000x64_1_0_0_1_n_n none x w (ix2 r c)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 r c) ((ValueIdx.contrEquiv1 dot_S5000x128_S128x64_S5000x64_1_0_0_1_n_n 128 rfl rfl).symm k) = ix2 r k := funext fun a => Fin.ext (by
    match a with
    | ⟨0, _⟩ => exact lhs128_0 _ _
    | ⟨1, _⟩ => exact (lhs128_1 _ _).trans hk)
  have er : dot_S5000x128_S128x64_S5000x64_1_0_0_1_n_n.rhsIdx (ix2 r c) ((ValueIdx.contrEquiv1 dot_S5000x128_S128x64_S5000x64_1_0_0_1_n_n 128 rfl rfl).symm k) = ix2 k c := funext fun a => Fin.ext (by
    match a with
    | ⟨0, _⟩ => exact (rhs128_0 _ _).trans hk
    | ⟨1, _⟩ => exact rhs128_1 _ _)
  rw [el, er]

theorem lhs64_0 (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs64_1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem rhs64_0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem rhs64_1 (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000,64] block times a [64,64] matrix into a zero accumulator, at row `r` and column `c`: the sum over the 64
    contracted positions. -/
theorem matmul64_apply {φ₁ φ₂ : FTy} (x : FVec Ideal S5000x64 φ₁) (w : FVec Ideal S64x64 φ₂) (r : Fin 5000) (c : Fin 64) :
    matmul dot_S5000x64_S64x64_S5000x64_1_0_0_1_n_n none x w (constant S5000x64 .f32 0x00000000#32) (ix2 r c)
      = ∑ k : Fin 64, x (ix2 r k) * w (ix2 k c) := by
  refine (Ideal.matmul_constant_zero_apply dot_S5000x64_S64x64_S5000x64_1_0_0_1_n_n none x w (ix2 r c)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r c) ((ValueIdx.contrEquiv1 dot_S5000x64_S64x64_S5000x64_1_0_0_1_n_n 64 rfl rfl).symm k) = ix2 r k := funext fun a => Fin.ext (by
    match a with
    | ⟨0, _⟩ => exact lhs64_0 _ _
    | ⟨1, _⟩ => exact (lhs64_1 _ _).trans hk)
  have er : dot_S5000x64_S64x64_S5000x64_1_0_0_1_n_n.rhsIdx (ix2 r c) ((ValueIdx.contrEquiv1 dot_S5000x64_S64x64_S5000x64_1_0_0_1_n_n 64 rfl rfl).symm k) = ix2 k c := funext fun a => Fin.ext (by
    match a with
    | ⟨0, _⟩ => exact (rhs64_0 _ _).trans hk
    | ⟨1, _⟩ => exact rhs64_1 _ _)
  rw [el, er]

/-- The row broadcast of a [1,64] vector to [5000,64], at row `r` and column `c`: the vector's entry `c`. -/
theorem rowBcast_apply (b : FVec Ideal S1x64 .f32) (r : Fin 5000) (c : Fin 64) :
    broadcastTo S5000x64 b Facts₀.broadcasts_S1x64_S5000x64 (ix2 r c) = b (ix2 (0 : Fin 1) c) :=
  broadcastTo_apply b Facts₀.broadcasts_S1x64_S5000x64 (ix2 r c) (ix2 (0 : Fin 1) c) (fun a => by
    match a with
    | ⟨0, _⟩ => show (0 : Nat) = if (1 : Nat) = 1 then 0 else _; rw [if_pos rfl]
    | ⟨1, _⟩ => show c.val = if (64 : Nat) = 1 then 0 else c.val; rw [if_neg (by decide)])

end Cert.KernelIdeal.Flow

end
-- ==== Proof.Region0.lean ====
/-
  Region 0: `h0 = x @ W1`, row-tiled.

  Grid point `t` loads rows `5000 t … 5000 t + 4999` of the [50000,128] array and the whole [128,64] matrix, multiplies them
  into a zero accumulator and writes the [5000,64] product back as rows `5000 t …` of the result. So whatever the two arrays
  hold when the region is entered, the result array ends holding their product, entry by entry
  `∑ k, x (r, k) · w (k, c)`: every row belongs to exactly one point's block.
-/
import proofs.«171685_j10264971837866_1_alg».proof.Proof.Gen.KernelIdeal.Frame
import proofs.«171685_j10264971837866_1_alg».proof.Proof.Spec

set_option maxRecDepth 16384

noncomputable section

namespace Cert.KernelIdeal.Flow

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The product of a [50000,128] array and a [128,64] matrix, entry by entry. -/
def mm128 (a : FVec Ideal S50000x128 .f32) (w : FVec Ideal S128x64 .f32) : FVec Ideal S50000x64 .f32 :=
  fun i => ∑ k : Fin 128, a (ix2 (⟨(i 0).val, idx2_lt0 i⟩ : Fin 50000) k) * w (ix2 k (⟨(i 1).val, idx2_lt1 i⟩ : Fin 64))

theorem lt10_0 (t : Fin cfg0.N) : t.val < 10 := lt_of_lt_of_eq t.isLt N_0

/-- The block index of each window at a point: the row-tiled windows sit at block `(t, 0)`, the matrix at `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value on a row block: if the loaded block is rows `5000 T …` of `a` and the loaded matrix is `w`,
    the value at `j` is the product's entry at row `5000 T + j₀`, column `j₁`. -/
theorem pay0_blk (x0 : Vec Ideal S5000x128 .f32) (x1 : Vec Ideal S128x64 .f32)
    (a : FVec Ideal S50000x128 .f32) (w : FVec Ideal S128x64 .f32) (T : Nat) (hT : T < 10)
    (h0 : ∀ (r : Fin 5000) (k : Fin 128), x0 (ix2 r k) = a (ix2 (gRow T hT r) k))
    (h1 : ∀ (k : Fin 128) (cc : Fin 64), x1 (ix2 k cc) = w (ix2 k cc))
    (j : S5000x64.Idx) (i : S50000x64.Idx) (hi0 : (i 0).val = 5000 * T + (j 0).val) (hi1 : (i 1).val = (j 1).val) :
    k0_pay1 (F := Ideal) x0 x1 j = mm128 a w i := by
  obtain ⟨r, cc, rfl⟩ : ∃ (r : Fin 5000) (cc : Fin 64), j = ix2 r cc := ⟨j 0, j 1, eq_ix2 j⟩
  unfold k0_pay1
  refine (matmul128_apply _ _ r cc).trans ?_
  unfold mm128
  refine Finset.sum_congr rfl fun k _ => ?_
  have e0 : gRow T hT r = (⟨(i 0).val, idx2_lt0 i⟩ : Fin 50000) := Fin.ext (by show 5000 * T + r.val = (i 0).val; exact hi0.symm)
  have e1 : cc = (⟨(i 1).val, idx2_lt1 i⟩ : Fin 64) := Fin.ext (by show cc.val = (i 1).val; exact hi1.symm)
  show x0 (ix2 r k) * x1 (ix2 k cc) = _
  rw [h0, h1, e0, e1]

/-- The row window's block at point `t` is rows `5000 t …` of the array as the region finds it. -/
theorem iblk0_0_apply (c : Dev nD) (t : Fin cfg0.N) (r : Fin 5000) (k : Fin 128) :
    (iblk0 V c 0 t : Vec Ideal S5000x128 .f32) (ix2 r k) = (V c main_arg0 : FVec Ideal S50000x128 .f32) (ix2 (gRow t.val (lt10_0 t) r) k) := by
  obtain ⟨e0, e1, -⟩ := idx_facts0 t
  unfold iblk0
  rw [View.read_apply]
  show V c main_arg0 _ = V c main_arg0 _
  refine congrArg _ (funext fun a => Fin.ext ?_)
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

/-- The matrix window's block at every point is the whole matrix. -/
theorem iblk0_1_apply (c : Dev nD) (t : Fin cfg0.N) (k : Fin 128) (cc : Fin 64) :
    (iblk0 V c 1 t : Vec Ideal S128x64 .f32) (ix2 k cc) = (V c main_arg2 : FVec Ideal S128x64 .f32) (ix2 k cc) := by
  obtain ⟨-, -, e2, e3, -⟩ := idx_facts0 t
  unfold iblk0
  rw [View.read_apply]
  show V c main_arg2 _ = V c main_arg2 _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 64 + 1 * cc.val = cc.val; rw [e3]; omega

/-- What point `t` writes back is block `t` of the product of the two arrays as the region finds them. -/
theorem flushed0 (c : Dev nD) (t : Fin cfg0.N) :
    (dat0 V c).flushed 2 t = ((cfg0.win 2).blk t).view.read (Elt Ideal) (mm128 (V c main_arg0) (V c main_arg2)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x64) hz2]
  obtain ⟨-, -, -, -, e4, e5⟩ := idx_facts0 t
  funext j
  rw [View.read_apply]
  exact pay0_blk (iblk0 V c 0 t) (iblk0 V c 1 t) (V c main_arg0) (V c main_arg2) t.val (lt10_0 t)
    (fun r k => iblk0_0_apply V c t r k) (fun k cc => iblk0_1_apply V c t k cc) j (((cfg0.win 2).blk t).view.emb j)
    (by show win0_2.index t (0 : Fin 2) * 5000 + 1 * (j 0).val = 5000 * t.val + (j 0).val; rw [e4]; omega)
    (by show win0_2.index t (1 : Fin 2) * 64 + 1 * (j 1).val = (j 1).val; rw [e5]; omega)

/-- An index of the result array is in point `t`'s block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row `r` of the result is in the block of point `r / 5000`. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_2 _, ?_⟩
  rw [mem_blk0]
  obtain ⟨-, -, -, -, e4, e5⟩ := idx_facts0 ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 64 ≤ (i 1).val ∧ (i 1).val < win0_2.index _ (1 : Fin 2) * 64 + 64; rw [e5]; omega

/-- THE RESULT ARRAY of region 0: the product of the two arrays it is entered with. -/
theorem arr0 (c : Dev nD) : (dat0 V c).arrAt 2 cfg0.N = mm128 (V c main_arg0) (V c main_arg2) :=
  (dat0 V c).arrAt_eq_of_cover 2 (mm128 (V c main_arg0) (V c main_arg2)) (fun t _ => flushed0 V c t) cover0

end Cert.KernelIdeal.Flow

end
-- ==== Proof.Region1.lean ====
/-
  Region 1: `h1 = relu (agg1 + b1)`, row-tiled.

  Grid point `t` loads rows `5000 t …` of the [50000,64] array and the whole [1,64] bias row, adds the bias to every row and
  takes the maximum with zero. So the result array ends holding, entry by entry, `max (a (r, c) + b (0, c)) 0` of the two
  arrays the region is entered with.
-/
import proofs.«171685_j10264971837866_1_alg».proof.Proof.Gen.KernelIdeal.Frame
import proofs.«171685_j10264971837866_1_alg».proof.Proof.Spec

set_option maxRecDepth 16384

noncomputable section

namespace Cert.KernelIdeal.Flow

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The bias row added to every row, then the maximum with zero, entry by entry. -/
def biasRelu (a : FVec Ideal S50000x64 .f32) (b : FVec Ideal S1x64 .f32) : FVec Ideal S50000x64 .f32 :=
  fun i => max (a i + b (ix2 (0 : Fin 1) (⟨(i 1).val, idx2_lt1 i⟩ : Fin 64))) (Ideal.ofBits .f32 0x00000000#32)

theorem lt10_1 (t : Fin cfg1.N) : t.val < 10 := lt_of_lt_of_eq t.isLt N_1

/-- The block index of each window at a point: the row-tiled windows sit at block `(t, 0)`, the small operands at `(0, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's stored value on a row block: if the loaded block is rows `5000 T …` of `a` and the loaded row is `b`, the
    value at `j` is `max (a + b) 0` at row `5000 T + j₀`, column `j₁`. -/
theorem pay1_blk (x0 : Vec Ideal S5000x64 .f32) (x1 : Vec Ideal S1x64 .f32)
    (a : FVec Ideal S50000x64 .f32) (b : FVec Ideal S1x64 .f32) (T : Nat) (hT : T < 10)
    (h0 : ∀ (r : Fin 5000) (k : Fin 64), x0 (ix2 r k) = a (ix2 (gRow T hT r) k))
    (h1 : ∀ (p : Fin 1) (q : Fin 64), x1 (ix2 p q) = b (ix2 p q))
    (j : S5000x64.Idx) (i : S50000x64.Idx) (hi0 : (i 0).val = 5000 * T + (j 0).val) (hi1 : (i 1).val = (j 1).val) :
    k1_pay1 (F := Ideal) x0 x1 j = biasRelu a b i := by
  obtain ⟨r, cc, rfl⟩ : ∃ (r : Fin 5000) (cc : Fin 64), j = ix2 r cc := ⟨j 0, j 1, eq_ix2 j⟩
  have ei : i = ix2 (gRow T hT r) cc := by
    rw [eq_ix2 i]; congr 1
    · exact Fin.ext (by show (i 0).val = 5000 * T + r.val; exact hi0)
    · exact Fin.ext (by show (i 1).val = cc.val; exact hi1)
  subst ei
  unfold k1_pay1 biasRelu
  simp only [maximumf_apply, addf_apply, shapeCast_self, rowBcast_apply, broadcast_apply, h0, h1]
  rfl

/-- The row window's block at point `t` is rows `5000 t …` of the array as the region finds it. -/
theorem iblk1_0_apply (c : Dev nD) (t : Fin cfg1.N) (r : Fin 5000) (k : Fin 64) :
    (iblk1 V c 0 t : Vec Ideal S5000x64 .f32) (ix2 r k) = (V c main_v43 : FVec Ideal S50000x64 .f32) (ix2 (gRow t.val (lt10_1 t) r) k) := by
  obtain ⟨e0, e1, -⟩ := idx_facts1 t
  unfold iblk1
  rw [View.read_apply]
  show V c main_v43 _ = V c main_v43 _
  refine congrArg _ (funext fun a => Fin.ext ?_)
  match a with
  | ⟨0, _⟩ => show win1_0.index t (0 : Fin 2) * 5000 + 1 * r.val = 5000 * t.val + r.val; rw [e0]; omega
  | ⟨1, _⟩ => show win1_0.index t (1 : Fin 2) * 64 + 1 * k.val = k.val; rw [e1]; omega

/-- Window 1's block at every point is its whole array. -/
theorem iblk1_1_apply (c : Dev nD) (t : Fin cfg1.N) (p : Fin 1) (q : Fin 64) :
    (iblk1 V c 1 t : Vec Ideal S1x64 .f32) (ix2 p q) = (V c main_v44 : FVec Ideal S1x64 .f32) (ix2 p q) := by
  obtain ⟨-, -, e0, e1, -⟩ := idx_facts1 t
  unfold iblk1
  rw [View.read_apply]
  show V c main_v44 _ = V c main_v44 _
  refine congrArg _ (funext fun a => Fin.ext ?_)
  match a with
  | ⟨0, _⟩ => show win1_1.index t (0 : Fin 2) * 1 + 1 * p.val = p.val; rw [e0]; omega
  | ⟨1, _⟩ => show win1_1.index t (1 : Fin 2) * 64 + 1 * q.val = q.val; rw [e1]; omega

/-- What point `t` writes back is block `t` of the result function of the arrays as the region finds them. -/
theorem flushed1 (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero hz2]
  simp only [View.ld_unit_zero (S := S5000x64) hz2, View.ld_unit_zero (S := S1x64) hz2]
  obtain ⟨-, -, -, -, e4, e5⟩ := idx_facts1 t
  funext j
  rw [View.read_apply]
  exact pay1_blk (iblk1 V c 0 t) (iblk1 V c 1 t) (V c main_v43) (V c main_v44) t.val (lt10_1 t)
    (fun r k => iblk1_0_apply V c t r k) (fun p q => iblk1_1_apply V c t p q) j (((cfg1.win 2).blk t).view.emb j)
    (by show win1_2.index t (0 : Fin 2) * 5000 + 1 * (j 0).val = 5000 * t.val + (j 0).val; rw [e4]; omega)
    (by show win1_2.index t (1 : Fin 2) * 64 + 1 * (j 1).val = (j 1).val; rw [e5]; omega)

/-- An index of the result array is in point `t`'s block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Row `r` of the result is in the block of point `r / 5000`. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  refine ⟨⟨(i 0).val / 5000, by rw [hN]; omega⟩, flush1_2 _, ?_⟩
  rw [mem_blk1]
  obtain ⟨-, -, -, -, e4, e5⟩ := idx_facts1 ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 64 ≤ (i 1).val ∧ (i 1).val < win1_2.index _ (1 : Fin 2) * 64 + 64; rw [e5]; omega

/-- THE RESULT ARRAY of region 1: the result function of the arrays it is entered with. -/
theorem arr1 (c : Dev nD) : (dat1 V c).arrAt 2 cfg1.N = biasRelu (V c main_v43) (V c main_v44) :=
  (dat1 V c).arrAt_eq_of_cover 2 (biasRelu (V c main_v43) (V c main_v44)) (fun t _ => flushed1 V c t) cover1

end Cert.KernelIdeal.Flow

end
-- ==== Proof.Region2.lean ====
/-
  Region 2: `h2 = h1 @ W2`, row-tiled.

  Grid point `t` loads rows `5000 t …` of the [50000,64] array and the whole [64,64] matrix, multiplies them into a zero
  accumulator and writes the [5000,64] product back as rows `5000 t …` of the result. So the result array ends holding the
  product of the two arrays the region is entered with, entry by entry `∑ k, a (r, k) · w (k, c)`.
-/
import proofs.«171685_j10264971837866_1_alg».proof.Proof.Gen.KernelIdeal.Frame
import proofs.«171685_j10264971837866_1_alg».proof.Proof.Spec

set_option maxRecDepth 16384

noncomputable section

namespace Cert.KernelIdeal.Flow

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The product of a [50000,64] array and a [64,64] matrix, entry by entry. -/
def mm64 (a : FVec Ideal S50000x64 .f32) (w : FVec Ideal S64x64 .f32) : FVec Ideal S50000x64 .f32 :=
  fun i => ∑ k : Fin 64, a (ix2 (⟨(i 0).val, idx2_lt0 i⟩ : Fin 50000) k) * w (ix2 k (⟨(i 1).val, idx2_lt1 i⟩ : Fin 64))

theorem lt10_2 (t : Fin cfg2.N) : t.val < 10 := lt_of_lt_of_eq t.isLt N_2

/-- The block index of each window at a point: the row-tiled windows sit at block `(t, 0)`, the small operands at `(0, 0)`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's stored value on a row block: if the loaded block is rows `5000 T …` of `a` and the loaded matrix is `w`,
    the value at `j` is the product's entry at row `5000 T + j₀`, column `j₁`. -/
theorem pay2_blk (x0 : Vec Ideal S5000x64 .f32) (x1 : Vec Ideal S64x64 .f32)
    (a : FVec Ideal S50000x64 .f32) (w : FVec Ideal S64x64 .f32) (T : Nat) (hT : T < 10)
    (h0 : ∀ (r : Fin 5000) (k : Fin 64), x0 (ix2 r k) = a (ix2 (gRow T hT r) k))
    (h1 : ∀ (p : Fin 64) (q : Fin 64), x1 (ix2 p q) = w (ix2 p q))
    (j : S5000x64.Idx) (i : S50000x64.Idx) (hi0 : (i 0).val = 5000 * T + (j 0).val) (hi1 : (i 1).val = (j 1).val) :
    k2_pay1 (F := Ideal) x0 x1 j = mm64 a w i := by
  obtain ⟨r, cc, rfl⟩ : ∃ (r : Fin 5000) (cc : Fin 64), j = ix2 r cc := ⟨j 0, j 1, eq_ix2 j⟩
  have ei : i = ix2 (gRow T hT r) cc := by
    rw [eq_ix2 i]; congr 1
    · exact Fin.ext (by show (i 0).val = 5000 * T + r.val; exact hi0)
    · exact Fin.ext (by show (i 1).val = cc.val; exact hi1)
  subst ei
  unfold k2_pay1 mm64
  refine (matmul64_apply _ _ r cc).trans ?_
  simp only [truncf_apply, shapeCast_self, h0, h1]

/-- The row window's block at point `t` is rows `5000 t …` of the array as the region finds it. -/
theorem iblk2_0_apply (c : Dev nD) (t : Fin cfg2.N) (r : Fin 5000) (k : Fin 64) :
    (iblk2 V c 0 t : Vec Ideal S5000x64 .f32) (ix2 r k) = (V c main_v45 : FVec Ideal S50000x64 .f32) (ix2 (gRow t.val (lt10_2 t) r) k) := by
  obtain ⟨e0, e1, -⟩ := idx_facts2 t
  unfold iblk2
  rw [View.read_apply]
  show V c main_v45 _ = V c main_v45 _
  refine congrArg _ (funext fun a => Fin.ext ?_)
  match a with
  | ⟨0, _⟩ => show win2_0.index t (0 : Fin 2) * 5000 + 1 * r.val = 5000 * t.val + r.val; rw [e0]; omega
  | ⟨1, _⟩ => show win2_0.index t (1 : Fin 2) * 64 + 1 * k.val = k.val; rw [e1]; omega

/-- Window 1's block at every point is its whole array. -/
theorem iblk2_1_apply (c : Dev nD) (t : Fin cfg2.N) (p : Fin 64) (q : Fin 64) :
    (iblk2 V c 1 t : Vec Ideal S64x64 .f32) (ix2 p q) = (V c main_arg4 : FVec Ideal S64x64 .f32) (ix2 p q) := by
  obtain ⟨-, -, e0, e1, -⟩ := idx_facts2 t
  unfold iblk2
  rw [View.read_apply]
  show V c main_arg4 _ = V c main_arg4 _
  refine congrArg _ (funext fun a => Fin.ext ?_)
  match a with
  | ⟨0, _⟩ => show win2_1.index t (0 : Fin 2) * 64 + 1 * p.val = p.val; rw [e0]; omega
  | ⟨1, _⟩ => show win2_1.index t (1 : Fin 2) * 64 + 1 * q.val = q.val; rw [e1]; omega

/-- What point `t` writes back is block `t` of the result function of the arrays as the region finds them. -/
theorem flushed2 (c : Dev nD) (t : Fin cfg2.N) :
    (dat2 V c).flushed 2 t = ((cfg2.win 2).blk t).view.read (Elt Ideal) (mm64 (V c main_v45) (V c main_arg4)) := by
  show (cfg2.win 2).cut (grid2.coords t) ((dat2 V c).after 2 t) = _
  rw [after2_2]
  unfold out2_2
  rw [View.canon_unit_zero hz2]
  simp only [View.ld_unit_zero (S := S5000x64) hz2, View.ld_unit_zero (S := S64x64) hz2]
  obtain ⟨-, -, -, -, e4, e5⟩ := idx_facts2 t
  funext j
  rw [View.read_apply]
  exact pay2_blk (iblk2 V c 0 t) (iblk2 V c 1 t) (V c main_v45) (V c main_arg4) t.val (lt10_2 t)
    (fun r k => iblk2_0_apply V c t r k) (fun p q => iblk2_1_apply V c t p q) j (((cfg2.win 2).blk t).view.emb j)
    (by show win2_2.index t (0 : Fin 2) * 5000 + 1 * (j 0).val = 5000 * t.val + (j 0).val; rw [e4]; omega)
    (by show win2_2.index t (1 : Fin 2) * 64 + 1 * (j 1).val = (j 1).val; rw [e5]; omega)

/-- An index of the result array is in point `t`'s block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Row `r` of the result is in the block of point `r / 5000`. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  refine ⟨⟨(i 0).val / 5000, by rw [hN]; omega⟩, flush2_2 _, ?_⟩
  rw [mem_blk2]
  obtain ⟨-, -, -, -, e4, e5⟩ := idx_facts2 ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 64 ≤ (i 1).val ∧ (i 1).val < win2_2.index _ (1 : Fin 2) * 64 + 64; rw [e5]; omega

/-- THE RESULT ARRAY of region 2: the result function of the arrays it is entered with. -/
theorem arr2 (c : Dev nD) : (dat2 V c).arrAt 2 cfg2.N = mm64 (V c main_v45) (V c main_arg4) :=
  (dat2 V c).arrAt_eq_of_cover 2 (mm64 (V c main_v45) (V c main_arg4)) (fun t _ => flushed2 V c t) cover2

end Cert.KernelIdeal.Flow

end
-- ==== Proof.Region3.lean ====
/-
  Region 3: `z = agg2 + b2`, row-tiled.

  Grid point `t` loads rows `5000 t …` of the [50000,64] array and the whole [1,64] bias row and adds the bias to every row.
  So the result array ends holding, entry by entry, `a (r, c) + b (0, c)` of the two arrays the region is entered with.
-/
import proofs.«171685_j10264971837866_1_alg».proof.Proof.Gen.KernelIdeal.Frame
import proofs.«171685_j10264971837866_1_alg».proof.Proof.Spec

set_option maxRecDepth 16384

noncomputable section

namespace Cert.KernelIdeal.Flow

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The bias row added to every row, entry by entry. -/
def biasAdd (a : FVec Ideal S50000x64 .f32) (b : FVec Ideal S1x64 .f32) : FVec Ideal S50000x64 .f32 :=
  fun i => a i + b (ix2 (0 : Fin 1) (⟨(i 1).val, idx2_lt1 i⟩ : Fin 64))

theorem lt10_3 (t : Fin cfg3.N) : t.val < 10 := lt_of_lt_of_eq t.isLt N_3

/-- The block index of each window at a point: the row-tiled windows sit at block `(t, 0)`, the small operands at `(0, 0)`. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's stored value on a row block: if the loaded block is rows `5000 T …` of `a` and the loaded row is `b`, the
    value at `j` is `a + b` at row `5000 T + j₀`, column `j₁`. -/
theorem pay3_blk (x0 : Vec Ideal S5000x64 .f32) (x1 : Vec Ideal S1x64 .f32)
    (a : FVec Ideal S50000x64 .f32) (b : FVec Ideal S1x64 .f32) (T : Nat) (hT : T < 10)
    (h0 : ∀ (r : Fin 5000) (k : Fin 64), x0 (ix2 r k) = a (ix2 (gRow T hT r) k))
    (h1 : ∀ (p : Fin 1) (q : Fin 64), x1 (ix2 p q) = b (ix2 p q))
    (j : S5000x64.Idx) (i : S50000x64.Idx) (hi0 : (i 0).val = 5000 * T + (j 0).val) (hi1 : (i 1).val = (j 1).val) :
    k3_pay1 (F := Ideal) x0 x1 j = biasAdd a b i := by
  obtain ⟨r, cc, rfl⟩ : ∃ (r : Fin 5000) (cc : Fin 64), j = ix2 r cc := ⟨j 0, j 1, eq_ix2 j⟩
  have ei : i = ix2 (gRow T hT r) cc := by
    rw [eq_ix2 i]; congr 1
    · exact Fin.ext (by show (i 0).val = 5000 * T + r.val; exact hi0)
    · exact Fin.ext (by show (i 1).val = cc.val; exact hi1)
  subst ei
  unfold k3_pay1 biasAdd
  simp only [addf_apply, shapeCast_self, rowBcast_apply, h0, h1]

/-- The row window's block at point `t` is rows `5000 t …` of the array as the region finds it. -/
theorem iblk3_0_apply (c : Dev nD) (t : Fin cfg3.N) (r : Fin 5000) (k : Fin 64) :
    (iblk3 V c 0 t : Vec Ideal S5000x64 .f32) (ix2 r k) = (V c main_v59 : FVec Ideal S50000x64 .f32) (ix2 (gRow t.val (lt10_3 t) r) k) := by
  obtain ⟨e0, e1, -⟩ := idx_facts3 t
  unfold iblk3
  rw [View.read_apply]
  show V c main_v59 _ = V c main_v59 _
  refine congrArg _ (funext fun a => Fin.ext ?_)
  match a with
  | ⟨0, _⟩ => show win3_0.index t (0 : Fin 2) * 5000 + 1 * r.val = 5000 * t.val + r.val; rw [e0]; omega
  | ⟨1, _⟩ => show win3_0.index t (1 : Fin 2) * 64 + 1 * k.val = k.val; rw [e1]; omega

/-- Window 1's block at every point is its whole array. -/
theorem iblk3_1_apply (c : Dev nD) (t : Fin cfg3.N) (p : Fin 1) (q : Fin 64) :
    (iblk3 V c 1 t : Vec Ideal S1x64 .f32) (ix2 p q) = (V c main_v60 : FVec Ideal S1x64 .f32) (ix2 p q) := by
  obtain ⟨-, -, e0, e1, -⟩ := idx_facts3 t
  unfold iblk3
  rw [View.read_apply]
  show V c main_v60 _ = V c main_v60 _
  refine congrArg _ (funext fun a => Fin.ext ?_)
  match a with
  | ⟨0, _⟩ => show win3_1.index t (0 : Fin 2) * 1 + 1 * p.val = p.val; rw [e0]; omega
  | ⟨1, _⟩ => show win3_1.index t (1 : Fin 2) * 64 + 1 * q.val = q.val; rw [e1]; omega

/-- What point `t` writes back is block `t` of the result function of the arrays as the region finds them. -/
theorem flushed3 (c : Dev nD) (t : Fin cfg3.N) :
    (dat3 V c).flushed 2 t = ((cfg3.win 2).blk t).view.read (Elt Ideal) (biasAdd (V c main_v59) (V c main_v60)) := by
  show (cfg3.win 2).cut (grid3.coords t) ((dat3 V c).after 2 t) = _
  rw [after3_2]
  unfold out3_2
  rw [View.canon_unit_zero hz2]
  simp only [View.ld_unit_zero (S := S5000x64) hz2, View.ld_unit_zero (S := S1x64) hz2]
  obtain ⟨-, -, -, -, e4, e5⟩ := idx_facts3 t
  funext j
  rw [View.read_apply]
  exact pay3_blk (iblk3 V c 0 t) (iblk3 V c 1 t) (V c main_v59) (V c main_v60) t.val (lt10_3 t)
    (fun r k => iblk3_0_apply V c t r k) (fun p q => iblk3_1_apply V c t p q) j (((cfg3.win 2).blk t).view.emb j)
    (by show win3_2.index t (0 : Fin 2) * 5000 + 1 * (j 0).val = 5000 * t.val + (j 0).val; rw [e4]; omega)
    (by show win3_2.index t (1 : Fin 2) * 64 + 1 * (j 1).val = (j 1).val; rw [e5]; omega)

/-- An index of the result array is in point `t`'s block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- Row `r` of the result is in the block of point `r / 5000`. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  refine ⟨⟨(i 0).val / 5000, by rw [hN]; omega⟩, flush3_2 _, ?_⟩
  rw [mem_blk3]
  obtain ⟨-, -, -, -, e4, e5⟩ := idx_facts3 ⟨(i 0).val / 5000, by rw [hN]; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 64 ≤ (i 1).val ∧ (i 1).val < win3_2.index _ (1 : Fin 2) * 64 + 64; rw [e5]; omega

/-- THE RESULT ARRAY of region 3: the result function of the arrays it is entered with. -/
theorem arr3 (c : Dev nD) : (dat3 V c).arrAt 2 cfg3.N = biasAdd (V c main_v59) (V c main_v60) :=
  (dat3 V c).arrAt_eq_of_cover 2 (biasAdd (V c main_v59) (V c main_v60)) (fun t _ => flushed3 V c t) cover3

end Cert.KernelIdeal.Flow

end
-- ==== Proof.Region4.lean ====
/-
  Region 4: the projection head `p = relu (z @ Wp1 + bp1) @ Wp2 + bp2`, row-tiled.

  Grid point `t` loads rows `5000 t …` of the [50000,64] array `z`, the two whole [64,64] matrices and the two whole [1,64] bias
  rows; it multiplies the row block by the first matrix, adds the first bias row, takes the maximum with zero, multiplies by
  the second matrix and adds the second bias row. A row of the result depends on the same row of `z` only, so the result
  array ends holding, entry by entry, `∑ k, max (∑ l, z (r, l) · w1 (l, k) + b1 (0, k)) 0 · w2 (k, c) + b2 (0, c)`.
-/
import proofs.«171685_j10264971837866_1_alg».proof.Proof.Gen.KernelIdeal.Frame
import proofs.«171685_j10264971837866_1_alg».proof.Proof.Spec

set_option maxRecDepth 16384

noncomputable section

namespace Cert.KernelIdeal.Flow

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The two-layer head, entry by entry: a row of `z` through the first matrix and bias, the maximum with zero, the
    second matrix and bias. -/
def projHead (z : FVec Ideal S50000x64 .f32) (w1 : FVec Ideal S64x64 .f32) (b1 : FVec Ideal S1x64 .f32)
    (w2 : FVec Ideal S64x64 .f32) (b2 : FVec Ideal S1x64 .f32) : FVec Ideal S50000x64 .f32 :=
  fun i => (∑ k : Fin 64, max ((∑ l : Fin 64, z (ix2 (⟨(i 0).val, idx2_lt0 i⟩ : Fin 50000) l) * w1 (ix2 l k)) + b1 (ix2 (0 : Fin 1) k)) (Ideal.ofBits .f32 0x00000000#32)
      * w2 (ix2 k (⟨(i 1).val, idx2_lt1 i⟩ : Fin 64))) + b2 (ix2 (0 : Fin 1) (⟨(i 1).val, idx2_lt1 i⟩ : Fin 64))

theorem lt10_4 (t : Fin cfg4.N) : t.val < 10 := lt_of_lt_of_eq t.isLt N_4

/-- The block index of each window at a point: the row-tiled windows sit at block `(t, 0)`, the small operands at `(0, 0)`. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The body's stored value on a row block: if the loaded block is rows `5000 T …` of `z` and the loaded small operands are
    `w1 b1 w2 b2`, the value at `j` is the head's entry at row `5000 T + j₀`, column `j₁`. -/
theorem pay4_blk (x0 : Vec Ideal S5000x64 .f32) (x1 : Vec Ideal S64x64 .f32) (x2 : Vec Ideal S1x64 .f32) (x3 : Vec Ideal S64x64 .f32) (x4 : Vec Ideal S1x64 .f32)
    (z : FVec Ideal S50000x64 .f32) (w1 : FVec Ideal S64x64 .f32) (b1 : FVec Ideal S1x64 .f32) (w2 : FVec Ideal S64x64 .f32) (b2 : FVec Ideal S1x64 .f32) (T : Nat) (hT : T < 10)
    (h0 : ∀ (r : Fin 5000) (k : Fin 64), x0 (ix2 r k) = z (ix2 (gRow T hT r) k))
    (h1 : ∀ (p : Fin 64) (q : Fin 64), x1 (ix2 p q) = w1 (ix2 p q))
    (h2 : ∀ (p : Fin 1) (q : Fin 64), x2 (ix2 p q) = b1 (ix2 p q))
    (h3 : ∀ (p : Fin 64) (q : Fin 64), x3 (ix2 p q) = w2 (ix2 p q))
    (h4 : ∀ (p : Fin 1) (q : Fin 64), x4 (ix2 p q) = b2 (ix2 p q))
    (j : S5000x64.Idx) (i : S50000x64.Idx) (hi0 : (i 0).val = 5000 * T + (j 0).val) (hi1 : (i 1).val = (j 1).val) :
    k4_pay1 (F := Ideal) x0 x1 x2 x3 x4 j = projHead z w1 b1 w2 b2 i := by
  obtain ⟨r, cc, rfl⟩ : ∃ (r : Fin 5000) (cc : Fin 64), j = ix2 r cc := ⟨j 0, j 1, eq_ix2 j⟩
  have ei : i = ix2 (gRow T hT r) cc := by
    rw [eq_ix2 i]; congr 1
    · exact Fin.ext (by show (i 0).val = 5000 * T + r.val; exact hi0)
    · exact Fin.ext (by show (i 1).val = cc.val; exact hi1)
  subst ei
  unfold k4_pay1 projHead
  simp only [addf_apply, maximumf_apply, truncf_apply, matmul64_apply, shapeCast_self, rowBcast_apply, broadcast_apply, h0, h1, h2, h3, h4]
  rfl

/-- The row window's block at point `t` is rows `5000 t …` of the array as the region finds it. -/
theorem iblk4_0_apply (c : Dev nD) (t : Fin cfg4.N) (r : Fin 5000) (k : Fin 64) :
    (iblk4 V c 0 t : Vec Ideal S5000x64 .f32) (ix2 r k) = (V c main_v61 : FVec Ideal S50000x64 .f32) (ix2 (gRow t.val (lt10_4 t) r) k) := by
  obtain ⟨e0, e1, -⟩ := idx_facts4 t
  unfold iblk4
  rw [View.read_apply]
  show V c main_v61 _ = V c main_v61 _
  refine congrArg _ (funext fun a => Fin.ext ?_)
  match a with
  | ⟨0, _⟩ => show win4_0.index t (0 : Fin 2) * 5000 + 1 * r.val = 5000 * t.val + r.val; rw [e0]; omega
  | ⟨1, _⟩ => show win4_0.index t (1 : Fin 2) * 64 + 1 * k.val = k.val; rw [e1]; omega

/-- Window 1's block at every point is its whole array. -/
theorem iblk4_1_apply (c : Dev nD) (t : Fin cfg4.N) (p : Fin 64) (q : Fin 64) :
    (iblk4 V c 1 t : Vec Ideal S64x64 .f32) (ix2 p q) = (V c main_arg6 : FVec Ideal S64x64 .f32) (ix2 p q) := by
  obtain ⟨-, -, e0, e1, -⟩ := idx_facts4 t
  unfold iblk4
  rw [View.read_apply]
  show V c main_arg6 _ = V c main_arg6 _
  refine congrArg _ (funext fun a => Fin.ext ?_)
  match a with
  | ⟨0, _⟩ => show win4_1.index t (0 : Fin 2) * 64 + 1 * p.val = p.val; rw [e0]; omega
  | ⟨1, _⟩ => show win4_1.index t (1 : Fin 2) * 64 + 1 * q.val = q.val; rw [e1]; omega

/-- Window 2's block at every point is its whole array. -/
theorem iblk4_2_apply (c : Dev nD) (t : Fin cfg4.N) (p : Fin 1) (q : Fin 64) :
    (iblk4 V c 2 t : Vec Ideal S1x64 .f32) (ix2 p q) = (V c main_v62 : FVec Ideal S1x64 .f32) (ix2 p q) := by
  obtain ⟨-, -, -, -, e0, e1, -⟩ := idx_facts4 t
  unfold iblk4
  rw [View.read_apply]
  show V c main_v62 _ = V c main_v62 _
  refine congrArg _ (funext fun a => Fin.ext ?_)
  match a with
  | ⟨0, _⟩ => show win4_2.index t (0 : Fin 2) * 1 + 1 * p.val = p.val; rw [e0]; omega
  | ⟨1, _⟩ => show win4_2.index t (1 : Fin 2) * 64 + 1 * q.val = q.val; rw [e1]; omega

/-- Window 3's block at every point is its whole array. -/
theorem iblk4_3_apply (c : Dev nD) (t : Fin cfg4.N) (p : Fin 64) (q : Fin 64) :
    (iblk4 V c 3 t : Vec Ideal S64x64 .f32) (ix2 p q) = (V c main_arg8 : FVec Ideal S64x64 .f32) (ix2 p q) := by
  obtain ⟨-, -, -, -, -, -, e0, e1, -⟩ := idx_facts4 t
  unfold iblk4
  rw [View.read_apply]
  show V c main_arg8 _ = V c main_arg8 _
  refine congrArg _ (funext fun a => Fin.ext ?_)
  match a with
  | ⟨0, _⟩ => show win4_3.index t (0 : Fin 2) * 64 + 1 * p.val = p.val; rw [e0]; omega
  | ⟨1, _⟩ => show win4_3.index t (1 : Fin 2) * 64 + 1 * q.val = q.val; rw [e1]; omega

/-- Window 4's block at every point is its whole array. -/
theorem iblk4_4_apply (c : Dev nD) (t : Fin cfg4.N) (p : Fin 1) (q : Fin 64) :
    (iblk4 V c 4 t : Vec Ideal S1x64 .f32) (ix2 p q) = (V c main_v63 : FVec Ideal S1x64 .f32) (ix2 p q) := by
  obtain ⟨-, -, -, -, -, -, -, -, e0, e1, -⟩ := idx_facts4 t
  unfold iblk4
  rw [View.read_apply]
  show V c main_v63 _ = V c main_v63 _
  refine congrArg _ (funext fun a => Fin.ext ?_)
  match a with
  | ⟨0, _⟩ => show win4_4.index t (0 : Fin 2) * 1 + 1 * p.val = p.val; rw [e0]; omega
  | ⟨1, _⟩ => show win4_4.index t (1 : Fin 2) * 64 + 1 * q.val = q.val; rw [e1]; omega

/-- What point `t` writes back is block `t` of the result function of the arrays as the region finds them. -/
theorem flushed4 (c : Dev nD) (t : Fin cfg4.N) :
    (dat4 V c).flushed 5 t = ((cfg4.win 5).blk t).view.read (Elt Ideal) (projHead (V c main_v61) (V c main_arg6) (V c main_v62) (V c main_arg8) (V c main_v63)) := by
  show (cfg4.win 5).cut (grid4.coords t) ((dat4 V c).after 5 t) = _
  rw [after4_5]
  unfold out4_5
  rw [View.canon_unit_zero hz2]
  simp only [View.ld_unit_zero (S := S5000x64) hz2, View.ld_unit_zero (S := S64x64) hz2, View.ld_unit_zero (S := S1x64) hz2]
  obtain ⟨-, -, -, -, -, -, -, -, -, -, e4, e5⟩ := idx_facts4 t
  funext j
  rw [View.read_apply]
  exact pay4_blk (iblk4 V c 0 t) (iblk4 V c 1 t) (iblk4 V c 2 t) (iblk4 V c 3 t) (iblk4 V c 4 t) (V c main_v61) (V c main_arg6) (V c main_v62) (V c main_arg8) (V c main_v63) t.val (lt10_4 t)
    (fun r k => iblk4_0_apply V c t r k) (fun p q => iblk4_1_apply V c t p q) (fun p q => iblk4_2_apply V c t p q) (fun p q => iblk4_3_apply V c t p q) (fun p q => iblk4_4_apply V c t p q) j (((cfg4.win 5).blk t).view.emb j)
    (by show win4_5.index t (0 : Fin 2) * 5000 + 1 * (j 0).val = 5000 * t.val + (j 0).val; rw [e4]; omega)
    (by show win4_5.index t (1 : Fin 2) * 64 + 1 * (j 1).val = (j 1).val; rw [e5]; omega)

/-- An index of the result array is in point `t`'s block iff each coordinate is in the block's range on its axis. -/
theorem mem_blk4 (t : Fin cfg4.N) (i : S50000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v64).slice (win4_5.rect t)).set ↔ _
  rw [View.set_slice_whole, Rect.mem_set_unit]
  exact Iff.rfl

/-- Row `r` of the result is in the block of point `r / 5000`. -/
theorem cover4 (i : S50000x64.Idx) : ∃ t : Fin cfg4.N, (cfg4.win 5).flush t = true ∧ i ∈ ((cfg4.win 5).blk t).view.set := by
  have hi0 : (i 0).val < 50000 := (i 0).isLt
  have hi1 : (i 1).val < 64 := (i 1).isLt
  have hN : cfg4.N = 10 := N_4
  refine ⟨⟨(i 0).val / 5000, by rw [hN]; omega⟩, flush4_5 _, ?_⟩
  rw [mem_blk4]
  obtain ⟨-, -, -, -, -, -, -, -, -, -, e4, e5⟩ := idx_facts4 ⟨(i 0).val / 5000, by rw [hN]; omega⟩
  intro a
  match a with
  | ⟨0, _⟩ => show win4_5.index _ (0 : Fin 2) * 5000 ≤ (i 0).val ∧ (i 0).val < win4_5.index _ (0 : Fin 2) * 5000 + 5000; rw [e4]; show (i 0).val / 5000 * 5000 ≤ (i 0).val ∧ (i 0).val < (i 0).val / 5000 * 5000 + 5000; omega
  | ⟨1, _⟩ => show win4_5.index _ (1 : Fin 2) * 64 ≤ (i 1).val ∧ (i 1).val < win4_5.index _ (1 : Fin 2) * 64 + 64; rw [e5]; omega

/-- THE RESULT ARRAY of region 4: the result function of the arrays it is entered with. -/
theorem arr4 (c : Dev nD) : (dat4 V c).arrAt 5 cfg4.N = projHead (V c main_v61) (V c main_arg6) (V c main_v62) (V c main_arg8) (V c main_v63) :=
  (dat4 V c).arrAt_eq_of_cover 5 (projHead (V c main_v61) (V c main_arg6) (V c main_v62) (V c main_arg8) (V c main_v63)) (fun t _ => flushed4 V c t) cover4

end Cert.KernelIdeal.Flow

end
-- ==== Proof.Keeps.lean ====
/-
  Buffers that nothing writes between two segment boundaries keep their contents.

  Each argument is read by a host operation or a kernel region somewhere along @main, and no host operation and no region
  writes it: at the boundary where it is read it still holds its launch contents. The edge lists `src`, `dst` and the
  normalization `norm` are computed before the first region and read again by the two aggregation stretches, and the
  first result `z` is read by the last region and returned: each holds at the later boundary what it held when written.
-/
import proofs.«171685_j10264971837866_1_alg».proof.Proof.Gen.KernelIdeal.Frame
import Idealize.ShloMosaic.Lib.ValueIdx

set_option maxRecDepth 16384

noncomputable section

namespace Cert.KernelIdeal.Flow

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- A stretch of host operations leaves a buffer none of them writes as it was. -/
macro "keeps_host" : tactic => `(tactic| (
  refine StableHlo.after_of_forall_not_mem _ _ (List.forall_iff_forall_mem.mp ?_)
  simp only [hostOps0, hostOps0_1, hostOps0_2, hostOps1, hostOps3, hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem W3_arg0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by keeps_host
    _ = W1 m ρ c (Proc.devRef .tc main_arg0) := by keeps_host
    _ = W0 m ρ c (Proc.devRef .tc main_arg0) := by keeps_host

theorem W3_arg2 (c : Dev nD) : W3 m ρ c (Proc.devRef .tc main_arg2) = W0 m ρ c (Proc.devRef .tc main_arg2) :=
  calc W3 m ρ c (Proc.devRef .tc main_arg2)
    _ = W2 m ρ c (Proc.devRef .tc main_arg2) := by keeps_host
    _ = W1 m ρ c (Proc.devRef .tc main_arg2) := by keeps_host
    _ = W0 m ρ c (Proc.devRef .tc main_arg2) := by keeps_host

theorem W4_arg3 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := by keeps_host
    _ = W1 m ρ c (Proc.devRef .tc main_arg3) := by keeps_host
    _ = W0 m ρ c (Proc.devRef .tc main_arg3) := by keeps_host

theorem W6_arg4 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by keeps_host
    _ = W3 m ρ c (Proc.devRef .tc main_arg4) := W4_of_ne m ρ c main_arg4 (by decide)
    _ = W2 m ρ c (Proc.devRef .tc main_arg4) := by keeps_host
    _ = W1 m ρ c (Proc.devRef .tc main_arg4) := by keeps_host
    _ = W0 m ρ c (Proc.devRef .tc main_arg4) := by keeps_host

theorem W7_arg5 (c : Dev nD) : W7 m ρ c (Proc.devRef .tc main_arg5) = W0 m ρ c (Proc.devRef .tc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by keeps_host
    _ = W3 m ρ c (Proc.devRef .tc main_arg5) := W4_of_ne m ρ c main_arg5 (by decide)
    _ = W2 m ρ c (Proc.devRef .tc main_arg5) := by keeps_host
    _ = W1 m ρ c (Proc.devRef .tc main_arg5) := by keeps_host
    _ = W0 m ρ c (Proc.devRef .tc main_arg5) := by keeps_host

theorem W9_arg7 (c : Dev nD) : W9 m ρ c (Proc.devRef .tc main_arg7) = W0 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := by keeps_host
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by keeps_host
    _ = W3 m ρ c (Proc.devRef .tc main_arg7) := W4_of_ne m ρ c main_arg7 (by decide)
    _ = W2 m ρ c (Proc.devRef .tc main_arg7) := by keeps_host
    _ = W1 m ρ c (Proc.devRef .tc main_arg7) := by keeps_host
    _ = W0 m ρ c (Proc.devRef .tc main_arg7) := by keeps_host

theorem W9_arg9 (c : Dev nD) : W9 m ρ c (Proc.devRef .tc main_arg9) = W0 m ρ c (Proc.devRef .tc main_arg9) :=
  calc W9 m ρ c (Proc.devRef .tc main_arg9)
    _ = W8 m ρ c (Proc.devRef .tc main_arg9) := W9_of_ne m ρ c main_arg9 (by decide)
    _ = W7 m ρ c (Proc.devRef .tc main_arg9) := by keeps_host
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by keeps_host
    _ = W3 m ρ c (Proc.devRef .tc main_arg9) := W4_of_ne m ρ c main_arg9 (by decide)
    _ = W2 m ρ c (Proc.devRef .tc main_arg9) := by keeps_host
    _ = W1 m ρ c (Proc.devRef .tc main_arg9) := by keeps_host
    _ = W0 m ρ c (Proc.devRef .tc main_arg9) := by keeps_host

theorem W10_arg6 (c : Dev nD) : W10 m ρ c (Proc.devRef .tc main_arg6) = W0 m ρ c (Proc.devRef .tc main_arg6) :=
  calc W10 m ρ c (Proc.devRef .tc main_arg6)
    _ = W9 m ρ c (Proc.devRef .tc main_arg6) := by keeps_host
    _ = W8 m ρ c (Proc.devRef .tc main_arg6) := W9_of_ne m ρ c main_arg6 (by decide)
    _ = W7 m ρ c (Proc.devRef .tc main_arg6) := by keeps_host
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by keeps_host
    _ = W3 m ρ c (Proc.devRef .tc main_arg6) := W4_of_ne m ρ c main_arg6 (by decide)
    _ = W2 m ρ c (Proc.devRef .tc main_arg6) := by keeps_host
    _ = W1 m ρ c (Proc.devRef .tc main_arg6) := by keeps_host
    _ = W0 m ρ c (Proc.devRef .tc main_arg6) := by keeps_host

theorem W10_arg8 (c : Dev nD) : W10 m ρ c (Proc.devRef .tc main_arg8) = W0 m ρ c (Proc.devRef .tc main_arg8) :=
  calc W10 m ρ c (Proc.devRef .tc main_arg8)
    _ = W9 m ρ c (Proc.devRef .tc main_arg8) := by keeps_host
    _ = W8 m ρ c (Proc.devRef .tc main_arg8) := W9_of_ne m ρ c main_arg8 (by decide)
    _ = W7 m ρ c (Proc.devRef .tc main_arg8) := by keeps_host
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by keeps_host
    _ = W3 m ρ c (Proc.devRef .tc main_arg8) := W4_of_ne m ρ c main_arg8 (by decide)
    _ = W2 m ρ c (Proc.devRef .tc main_arg8) := by keeps_host
    _ = W1 m ρ c (Proc.devRef .tc main_arg8) := by keeps_host
    _ = W0 m ρ c (Proc.devRef .tc main_arg8) := by keeps_host

theorem W4_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem W4_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem W4_v29 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem W7_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keeps_host
    _ = W3 m ρ c (Proc.devRef .tc main_v3) := W4_of_ne m ρ c main_v3 (by decide)

theorem W7_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keeps_host
    _ = W3 m ρ c (Proc.devRef .tc main_v6) := W4_of_ne m ρ c main_v6 (by decide)

theorem W7_v29 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by keeps_host
    _ = W3 m ρ c (Proc.devRef .tc main_v29) := W4_of_ne m ρ c main_v29 (by decide)

theorem W10_v61 (c : Dev nD) : W10 m ρ c (Proc.devRef .tc main_v61) = W9 m ρ c (Proc.devRef .tc main_v61) :=
  calc W10 m ρ c (Proc.devRef .tc main_v61)
    _ = W9 m ρ c (Proc.devRef .tc main_v61) := by keeps_host

theorem W11_v61 (c : Dev nD) : W11 m ρ c (Proc.devRef .tc main_v61) = W9 m ρ c (Proc.devRef .tc main_v61) :=
  calc W11 m ρ c (Proc.devRef .tc main_v61)
    _ = W10 m ρ c (Proc.devRef .tc main_v61) := (W11_arr m ρ c 0).trans (((dat4 (V10 m ρ) c).arrAt_in 0 rfl _).trans (A_eq4 (V10 m ρ) c 0))
    _ = W9 m ρ c (Proc.devRef .tc main_v61) := by keeps_host

end Cert.KernelIdeal.Flow

end
-- ==== Proof.HostReads.lean ====
/-
  The stretches of host operations, read back.

  Before the first region the host computes the edge lists with self loops (`src`, `dst`), the in-degree of every node by a
  scatter-add of ones, its inverse square root where positive, and the per-edge normalization `norm = dinv[src] · dinv[dst]`.
  Between the regions it aggregates: gather the rows of the transformed features at `src`, scale each by `norm`, scatter-add
  them at `dst`; and it reshapes each bias vector to a [1,64] row. The reference applies the same host operations to the same
  operands (it computes the normalization twice, from the same edge lists, where the kernel's program computes it once), so
  each buffer a stretch writes is the reference's stage of the same name, as a function of the launch contents of the
  arguments and of what the preceding region left.
-/
import proofs.«171685_j10264971837866_1_alg».proof.Proof.Gen.KernelIdeal.Frame
import proofs.«171685_j10264971837866_1_alg».proof.Proof.RefReadP
import proofs.«171685_j10264971837866_1_alg».proof.Proof.Keeps

set_option maxRecDepth 16384

noncomputable section

namespace Cert.KernelIdeal.Flow

open Cert.KernelIdeal Cert.KernelIdeal.Gen
open Idealize.ShloMosaic Idealize.ShloMosaic.TcCoe Idealize.SL.Sem Idealize.ShloMosaic.ValueIdx
open Idealize.ShloMosaic.Pipeline (Dat)

open Cert.ReferenceIdeal.ReadP

variable {F : FTy → Type} [FloatOps F]
variable (m : (ℓ : Loc nD τ sig) → Buf (Elt F) ℓ) (ρ : Dev nD → PrngReg)

/-! ## Before the first region: the edge lists and the normalization, functions of the edge argument alone -/

set_option maxHeartbeats 4000000 in
/-- The source list with self loops. -/
theorem W3_src (c : Dev nD) : W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

set_option maxHeartbeats 4000000 in
/-- The destination list with self loops. -/
theorem W3_dst (c : Dev nD) : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  after_results_simp
  rfl

set_option maxHeartbeats 4000000 in
/-- The per-edge normalization. -/
theorem W3_norm (c : Dev nD) : W3 m ρ c (Proc.devRef .tc main_v29) = val_main_v30 (F := F) (m ((c : Thread nD τ).loc main_arg1)) := by
  show StableHlo.after hostOps0_2 (StableHlo.after hostOps0_1 (StableHlo.after hostOps0 (W0 m ρ c))) (Proc.devRef .tc main_v29) = _
  after_results_simp
  rfl

/-- The reference's second computation of the normalization is the first: the same operations of the same edge lists. -/
theorem norm_twice (x1 : (⟨Cert.ReferenceIdeal.S2x800000, .i32⟩ : BufTy).Contents (Elt F)) : val_main_v71 (F := F) x1 = val_main_v30 (F := F) x1 := rfl

/-! ## Between regions 0 and 1: the first aggregation, and the first bias as a row -/

set_option maxHeartbeats 4000000 in
theorem W5_agg (c : Dev nD)
    (h30 : W4 m ρ c (Proc.devRef .tc main_v30) = val_main_v7 (F := F) (m ((c : Thread nD τ).loc main_arg0)) (m ((c : Thread nD τ).loc main_arg2))) :
    W5 m ρ c (Proc.devRef .tc main_v43) = val_main_v43 (F := F) (m ((c : Thread nD τ).loc main_arg0)) (m ((c : Thread nD τ).loc main_arg1)) (m ((c : Thread nD τ).loc main_arg2)) := by
  show StableHlo.after hostOps1 (W4 m ρ c) (Proc.devRef .tc main_v43) = _
  after_results_simp
  rw [h30, W4_v3, W4_v6, W4_v29, W3_src, W3_dst, W3_norm]
  rfl

theorem W5_bias (c : Dev nD) :
    W5 m ρ c (Proc.devRef .tc main_v44) = shapeCast S1x64 (m ((c : Thread nD τ).loc main_arg3)) Facts₀.shapeCasts_S64_S1x64 := by
  show StableHlo.after hostOps1 (W4 m ρ c) (Proc.devRef .tc main_v44) = _
  after_results_simp
  rw [W4_arg3]
  rfl

/-! ## Between regions 2 and 3: the second aggregation, and the second bias as a row -/

set_option maxHeartbeats 4000000 in
theorem W8_agg (c : Dev nD)
    (h46 : W7 m ρ c (Proc.devRef .tc main_v46) = val_main_v48 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W8 m ρ c (Proc.devRef .tc main_v59) = val_main_v84 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W7 m ρ c) (Proc.devRef .tc main_v59) = _
  after_results_simp
  rw [h46, W7_v3, W7_v6, W7_v29, W3_src, W3_dst, W3_norm, ← norm_twice]
  rfl

theorem W8_bias (c : Dev nD) :
    W8 m ρ c (Proc.devRef .tc main_v60) = shapeCast S1x64 (m ((c : Thread nD τ).loc main_arg5)) Facts₀.shapeCasts_S64_S1x64 := by
  show StableHlo.after hostOps3 (W7 m ρ c) (Proc.devRef .tc main_v60) = _
  after_results_simp
  rw [W7_arg5]
  rfl

/-! ## Before the last region: the head's two biases as rows -/

theorem W10_bias1 (c : Dev nD) :
    W10 m ρ c (Proc.devRef .tc main_v62) = shapeCast S1x64 (m ((c : Thread nD τ).loc main_arg7)) Facts₀.shapeCasts_S64_S1x64 := by
  show StableHlo.after hostOps4 (W9 m ρ c) (Proc.devRef .tc main_v62) = _
  after_results_simp
  rw [W9_arg7]
  rfl

theorem W10_bias2 (c : Dev nD) :
    W10 m ρ c (Proc.devRef .tc main_v63) = shapeCast S1x64 (m ((c : Thread nD τ).loc main_arg9)) Facts₀.shapeCasts_S64_S1x64 := by
  show StableHlo.after hostOps4 (W9 m ρ c) (Proc.devRef .tc main_v63) = _
  after_results_simp
  rw [W9_arg9]
  rfl

end Cert.KernelIdeal.Flow

end
-- ==== Proof.Stages.lean ====
/-
  The kernel's program, stage by stage, is the reference's.

  Walking @main's segments in order, each buffer the reference also computes holds the reference's stage of the same value,
  as a function of the launch contents of the arguments:
    region 0  `h0 = x @ W1`            a row block times the matrix, block by block, is the whole product `dot_general x W1`
    stretch 1 `agg1`                   the same gather, scaling and scatter-add of the same operands
    region 1  `h1 = relu (agg1 + b1)`   the bias as a [1,64] row broadcast down the rows is `broadcast_in_dim` of the vector
    region 2  `h2 = h1 @ W2`, stretch 3 `agg2`, region 3 `z = agg2 + b2`   likewise
    region 4  `p = relu (z @ Wp1 + bp1) @ Wp2 + bp2`   a row of `p` depends on the same row of `z` only
  At the ideal instance a matrix product is the plain sum over the contracted axis on both sides (the kernels' conversion to
  bf16 before the product is the identity there), so the two sides agree entry by entry, with no algebra beyond that.
-/
import proofs.«171685_j10264971837866_1_alg».proof.Proof.Region0
import proofs.«171685_j10264971837866_1_alg».proof.Proof.Region1
import proofs.«171685_j10264971837866_1_alg».proof.Proof.Region2
import proofs.«171685_j10264971837866_1_alg».proof.Proof.Region3
import proofs.«171685_j10264971837866_1_alg».proof.Proof.Region4
import proofs.«171685_j10264971837866_1_alg».proof.Proof.HostReads

set_option maxRecDepth 16384

noncomputable section

namespace Cert.KernelIdeal.Flow

open Cert.KernelIdeal Cert.KernelIdeal.Gen
open Idealize.ShloMosaic Idealize.ShloMosaic.TcCoe Idealize.SL.Sem Idealize.ShloMosaic.ValueIdx
open Idealize.ShloMosaic.Pipeline (Dat)

open Cert.ReferenceIdeal.ReadP

variable (m : (ℓ : Loc nD τ sig) → Buf (Elt Ideal) ℓ) (ρ : Dev nD → PrngReg)

/-! ## The reference's index functions are the row and column constructors -/

theorem lidx7 (i : S50000x64.Idx) (k : Fin 128) : lidx_main_v7 i k = ix2 (⟨(i 0).val, idx2_lt0 i⟩ : Fin 50000) k :=
  funext fun a => Fin.ext (by match a with | ⟨0, _⟩ => rfl | ⟨1, _⟩ => rfl)
theorem ridx7 (i : S50000x64.Idx) (k : Fin 128) : ridx_main_v7 i k = ix2 k (⟨(i 1).val, idx2_lt1 i⟩ : Fin 64) :=
  funext fun a => Fin.ext (by match a with | ⟨0, _⟩ => rfl | ⟨1, _⟩ => rfl)
theorem lidx48 (i : S50000x64.Idx) (k : Fin 64) : lidx_main_v48 i k = ix2 (⟨(i 0).val, idx2_lt0 i⟩ : Fin 50000) k :=
  funext fun a => Fin.ext (by match a with | ⟨0, _⟩ => rfl | ⟨1, _⟩ => rfl)
theorem ridx48 (i : S50000x64.Idx) (k : Fin 64) : ridx_main_v48 i k = ix2 k (⟨(i 1).val, idx2_lt1 i⟩ : Fin 64) :=
  funext fun a => Fin.ext (by match a with | ⟨0, _⟩ => rfl | ⟨1, _⟩ => rfl)
theorem lidx88 (i : S50000x64.Idx) (k : Fin 64) : lidx_main_v88 i k = ix2 (⟨(i 0).val, idx2_lt0 i⟩ : Fin 50000) k :=
  funext fun a => Fin.ext (by match a with | ⟨0, _⟩ => rfl | ⟨1, _⟩ => rfl)
theorem ridx88 (i : S50000x64.Idx) (k : Fin 64) : ridx_main_v88 i k = ix2 k (⟨(i 1).val, idx2_lt1 i⟩ : Fin 64) :=
  funext fun a => Fin.ext (by match a with | ⟨0, _⟩ => rfl | ⟨1, _⟩ => rfl)
theorem lidx93 (i : S50000x64.Idx) (k : Fin 64) : lidx_main_v93 i k = ix2 (⟨(i 0).val, idx2_lt0 i⟩ : Fin 50000) k :=
  funext fun a => Fin.ext (by match a with | ⟨0, _⟩ => rfl | ⟨1, _⟩ => rfl)
theorem ridx93 (i : S50000x64.Idx) (k : Fin 64) : ridx_main_v93 i k = ix2 k (⟨(i 1).val, idx2_lt1 i⟩ : Fin 64) :=
  funext fun a => Fin.ext (by match a with | ⟨0, _⟩ => rfl | ⟨1, _⟩ => rfl)

/-- A bias vector reshaped to a [1,64] row, at column `q`: the vector's entry `q`. -/
theorem bias_row (b : FVec Ideal S64 .f32) (q : Fin 64) :
    shapeCast S1x64 b Facts₀.shapeCasts_S64_S1x64 (ix2 (0 : Fin 1) q) = b (ix1 q) :=
  (shapeCast_addUnit_apply ![64] b Facts₀.shapeCasts_S64_S1x64 (ix2 (0 : Fin 1) q)).trans
    (congrArg b (funext fun a => by match a with | ⟨0, _⟩ => rfl))

/-- The reference broadcasts a bias vector to [1,64] and then down the rows: at `(r, c)` it reads the vector's entry `c`. -/
theorem bcast_idx (i : S50000x64.Idx) : idx_main_v44 (idx_main_v45 i) = ix1 (⟨(i 1).val, idx2_lt1 i⟩ : Fin 64) :=
  funext fun a => Fin.ext (by match a with | ⟨0, _⟩ => rfl)

theorem bcast_idx86 (i : S50000x64.Idx) : idx_main_v85 (idx_main_v86 i) = ix1 (⟨(i 1).val, idx2_lt1 i⟩ : Fin 64) :=
  funext fun a => Fin.ext (by match a with | ⟨0, _⟩ => rfl)
theorem bcast_idx95 (i : S50000x64.Idx) : idx_main_v94 (idx_main_v95 i) = ix1 (⟨(i 1).val, idx2_lt1 i⟩ : Fin 64) :=
  funext fun a => Fin.ext (by match a with | ⟨0, _⟩ => rfl)
theorem bcast_idx90 (a : Fin 50000) (k : Fin 64) : idx_main_v89 (idx_main_v90 (ix2 a k)) = ix1 k :=
  funext fun d => Fin.ext (by match d with | ⟨0, _⟩ => rfl)
theorem lidx88' (a : Fin 50000) (k l : Fin 64) : lidx_main_v88 (ix2 a k) l = ix2 a l :=
  funext fun d => Fin.ext (by match d with | ⟨0, _⟩ => rfl | ⟨1, _⟩ => rfl)
theorem ridx88' (a : Fin 50000) (k l : Fin 64) : ridx_main_v88 (ix2 a k) l = ix2 l k :=
  funext fun d => Fin.ext (by match d with | ⟨0, _⟩ => rfl | ⟨1, _⟩ => rfl)

/-! ## Layer 1 -/

theorem W4_h0 (c : Dev nD) : W4 m ρ c (Proc.devRef .tc main_v30) = val_main_v7 (F := Ideal) (m ((c : Thread nD τ).loc main_arg0)) (m ((c : Thread nD τ).loc main_arg2)) := by
  refine (W4_arr m ρ c 2).trans ((arr0 (V3 m ρ) c).trans ?_)
  show mm128 (W3 m ρ c (Proc.devRef .tc main_arg0)) (W3 m ρ c (Proc.devRef .tc main_arg2)) = _
  rw [W3_arg0, W3_arg2]
  funext i
  rw [val_main_v7_apply]
  unfold mm128
  simp only [lidx7, ridx7]

theorem W6_h1 (c : Dev nD) : W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((arr1 (V5 m ρ) c).trans ?_)
  show biasRelu (W5 m ρ c (Proc.devRef .tc main_v43)) (W5 m ρ c (Proc.devRef .tc main_v44)) = _
  rw [W5_agg m ρ c (W4_h0 m ρ c), W5_bias]
  funext i
  rw [val_main_v47_apply, val_main_v46_apply, val_main_v45_apply, val_main_v44_apply, val_main_call1_v0_apply, val_main_call1_cst_apply]
  unfold biasRelu
  rw [bias_row, bcast_idx]
  rfl

/-! ## Layer 2 -/

theorem W7_h2 (c : Dev nD) : W7 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((arr2 (V6 m ρ) c).trans ?_)
  show mm64 (W6 m ρ c (Proc.devRef .tc main_v45)) (W6 m ρ c (Proc.devRef .tc main_arg4)) = _
  rw [W6_h1, W6_arg4]
  funext i
  rw [val_main_v48_apply]
  unfold mm64
  simp only [lidx48, ridx48]

theorem W9_z (c : Dev nD) : W9 m ρ c (Proc.devRef .tc main_v61) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((arr3 (V8 m ρ) c).trans ?_)
  show biasAdd (W8 m ρ c (Proc.devRef .tc main_v59)) (W8 m ρ c (Proc.devRef .tc main_v60)) = _
  rw [W8_agg m ρ c (W7_h2 m ρ c), W8_bias]
  funext i
  rw [val_main_v87_apply, val_main_v86_apply, val_main_v85_apply]
  unfold biasAdd
  rw [bias_row, bcast_idx86]
  rfl

/-! ## The projection head -/

/-- The host's product of a [50000,64] array and a [64,64] matrix, at row `a` and column `b`: the sum over the 64 contracted
    positions. -/
theorem dotR64_apply (y0 : FVec Ideal S50000x64 .f32) (w : FVec Ideal S64x64 .f32) (a : Fin 50000) (b : Fin 64) :
    Host.dotGeneral (F := Ideal) Cert.ReferenceIdeal.dot_S50000x64_S64x64_S50000x64_1_0_0_1_n_n none y0 w (ix2 a b) = ∑ k : Fin 64, y0 (ix2 a k) * w (ix2 k b) := by
  simp only [Host.dotGeneral]
  rw [Ideal.dotGeneral_apply, ← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : (Cert.ReferenceIdeal.dot_S50000x64_S64x64_S50000x64_1_0_0_1_n_n).lhsIdx (ix2 a b) ((ValueIdx.contrEquiv1 Cert.ReferenceIdeal.dot_S50000x64_S64x64_S50000x64_1_0_0_1_n_n 64 rfl rfl).symm k) = ix2 a k := funext fun d => Fin.ext (by
    match d with
    | ⟨0, _⟩ => exact lhs_main_v88_0 _ _
    | ⟨1, _⟩ => exact (lhs_main_v88_1 _ _).trans hk)
  have er : (Cert.ReferenceIdeal.dot_S50000x64_S64x64_S50000x64_1_0_0_1_n_n).rhsIdx (ix2 a b) ((ValueIdx.contrEquiv1 Cert.ReferenceIdeal.dot_S50000x64_S64x64_S50000x64_1_0_0_1_n_n 64 rfl rfl).symm k) = ix2 k b := funext fun d => Fin.ext (by
    match d with
    | ⟨0, _⟩ => exact (rhs_main_v88_0 _ _).trans hk
    | ⟨1, _⟩ => exact rhs_main_v88_1 _ _)
  rw [el, er]

theorem bcast_idx95' (a : Fin 50000) (b : Fin 64) : idx_main_v94 (idx_main_v95 (ix2 a b)) = ix1 b :=
  funext fun d => Fin.ext (by match d with | ⟨0, _⟩ => rfl)

/-- The kernel's head on any [50000,64] array is the reference's: product, bias, maximum with zero, product, bias. -/
theorem head_eq (Z : FVec Ideal S50000x64 .f32) (x6 x8 : FVec Ideal S64x64 .f32) (x7 x9 : FVec Ideal S64 .f32) :
    projHead Z x6 (shapeCast S1x64 x7 Facts₀.shapeCasts_S64_S1x64) x8 (shapeCast S1x64 x9 Facts₀.shapeCasts_S64_S1x64)
      = addf (Host.dotGeneral (F := Ideal) Cert.ReferenceIdeal.dot_S50000x64_S64x64_S50000x64_1_0_0_1_n_n none
          (maximumf (addf (Host.dotGeneral (F := Ideal) Cert.ReferenceIdeal.dot_S50000x64_S64x64_S50000x64_1_0_0_1_n_n none Z x6) (val_main_v90 (F := Ideal) x7)) (val_main_call3_v0 (F := Ideal))) x8)
          (val_main_v95 (F := Ideal) x9) := by
  funext i
  obtain ⟨a, b, rfl⟩ : ∃ (a : Fin 50000) (b : Fin 64), i = ix2 a b := ⟨i 0, i 1, eq_ix2 i⟩
  rw [addf_apply, dotR64_apply, val_main_v95_apply, val_main_v94_apply, bcast_idx95']
  show (∑ k : Fin 64, max ((∑ l : Fin 64, Z (ix2 a l) * x6 (ix2 l k)) + shapeCast S1x64 x7 Facts₀.shapeCasts_S64_S1x64 (ix2 (0 : Fin 1) k)) (Ideal.ofBits .f32 0x00000000#32) * x8 (ix2 k b))
      + shapeCast S1x64 x9 Facts₀.shapeCasts_S64_S1x64 (ix2 (0 : Fin 1) b) = _
  rw [bias_row]
  refine congrArg (· + x9 (ix1 b)) (Finset.sum_congr rfl fun k _ => ?_)
  rw [maximumf_apply, addf_apply, dotR64_apply, val_main_v90_apply, val_main_v89_apply, bcast_idx90, val_main_call3_v0_apply,
    val_main_call3_cst_apply, bias_row]
  rfl

theorem W11_p (c : Dev nD) : W11 m ρ c (Proc.devRef .tc main_v64) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W11_arr m ρ c 5).trans ((arr4 (V10 m ρ) c).trans ?_)
  show projHead (W10 m ρ c (Proc.devRef .tc main_v61)) (W10 m ρ c (Proc.devRef .tc main_arg6)) (W10 m ρ c (Proc.devRef .tc main_v62))
    (W10 m ρ c (Proc.devRef .tc main_arg8)) (W10 m ρ c (Proc.devRef .tc main_v63)) = _
  rw [W10_v61, W9_z, W10_arg6, W10_bias1, W10_arg8, W10_bias2]
  refine (head_eq _ _ _ _ _).trans ?_
  unfold val_main_v96 val_main_v93 val_main_v92 val_main_v91 val_main_v88
  rfl

/-- The first result, returned as the last region found it. -/
theorem W11_z (c : Dev nD) : W11 m ρ c (Proc.devRef .tc main_v61) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W11_v61 m ρ c).trans (W9_z m ρ c)

end Cert.KernelIdeal.Flow

end
-- ==== Proof.lean ====
/-
  The five claims of this certificate: a two-layer graph convolution with a two-layer projection head, as five row-tiled
  kernels among host gather / scatter-add stretches, against the same model in plain jnp.

  Both programs build the edge lists with self loops, the in-degree by a scatter-add of ones, `dinv = rsqrt deg` where the
  degree is positive, and `norm = dinv[src] · dinv[dst]`; a layer is `segment_sum ((h @ W)[src] · norm, dst) + b`, the first
  followed by `relu`; the head is `relu (z @ Wp1 + bp1) @ Wp2 + bp2`. The kernel's program does the three dense products, the
  bias additions and the head in kernels tiled over blocks of 5000 rows, and the gathers and scatter-adds on the host, with the
  very operations of the reference. At the ideal instance the conversion to bf16 before each product is the identity and a
  product into a zero accumulator is the plain sum over the contracted axis, so every stage of the kernel's program is the
  reference's stage of the same name (Proof/Stages.lean), and the two results are equal as extended reals, entry by entry.
  No law that needs finiteness is used: the precondition is never opened.

  The frames of the two kernel programs are the generated ones; the reference's frame is its run with the results dropped;
  the ideal pass rewrote nothing, so `preserves` is trivial.
-/
import proofs.«171685_j10264971837866_1_alg».proof.Defs
import proofs.«171685_j10264971837866_1_alg».proof.Proof.Gen.Kernel
import proofs.«171685_j10264971837866_1_alg».proof.Proof.Gen.Kernel.Frame
import proofs.«171685_j10264971837866_1_alg».proof.Proof.Gen.KernelIdeal
import proofs.«171685_j10264971837866_1_alg».proof.Proof.Gen.KernelIdeal.Frame
import proofs.«171685_j10264971837866_1_alg».proof.Proof.Gen.ReferenceIdeal
import proofs.«171685_j10264971837866_1_alg».proof.Proof.Gen.Pre_finite_inputs
import proofs.«171685_j10264971837866_1_alg».proof.Proof.RefReadP
import proofs.«171685_j10264971837866_1_alg».proof.Proof.KernelRun
import proofs.«171685_j10264971837866_1_alg».proof.Proof.Stages

noncomputable section

open Idealize.ShloMosaic Idealize.ShloMosaic.TcCoe Idealize.SL.Sem

namespace Cert.Proof.Claims

open Cert.ReferenceIdeal.ReadP

/-- The idealized kernel's run with its results read: the first result array ends at the reference's second-layer output of
    the arguments, the second at the reference's head output, the arguments unchanged. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v61) = val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_v64) = val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run (Cert.KernelIdeal.defs (F := Ideal)) _ _).mono
    (fun r h c => ⟨(h c).1.trans (Cert.KernelIdeal.Flow.W11_z m ρ c), (h c).2.1.trans (Cert.KernelIdeal.Flow.W11_p m ρ c), (h c).2.2⟩)
    (Cert.KernelIdeal.Flow.run_results (F := Ideal) m ρ)

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- From memories that agree on the arguments both programs end with the reference's two stage functions of the arguments
    in their result buffers. -/
theorem algebraic : Cert.algebraic_KernelIdeal_ReferenceIdeal := by
  intro m ρ m' ρ' _ hagree
  refine ⟨_, _, kernel_value m ρ, ?_⟩
  refine (θ_run Cert.ReferenceIdeal.defs _ _).mono (fun r h c => ?_) (Cert.ReferenceIdeal.ValueP.run (F := Ideal) m' ρ')
  obtain ⟨e0, e1, e2, e3, e4, e5, e6, e7, e8, e9⟩ := hagree c
  refine ⟨(h c).1.trans ?_, (h c).2.1.trans ?_, (h c).2.2⟩
  · rw [val_main_v87_eq, e0, e1, e2, e3, e4, e5]
  · rw [val_main_v96_eq, e0, e1, e2, e3, e4, e5, e6, e7, e8, e9]

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
